-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x16x2 : Shape := ⟨4, ![64, 8192, 16, 2]⟩
abbrev S_ : Shape := ⟨0, ![]⟩

class Facts : Prop where
  bcast_S_S64x8192x16x2 : S_.BroadcastsInDim S64x8192x16x2 (![] : Fin 0 → Fin S64x8192x16x2.rank)
  reducesTo_S64x8192x16x2_S_d0_1_2_3 : S64x8192x16x2.ReducesTo [0, 1, 2, 3] S_
  h_S_ : 0 < S_.numel

variable [Facts]

def fn {F : FTy → Type} [FloatOps F] (main_arg0 : FVec F S64x8192x16x2 .f32) : IVec S_ 1 :=
  let main_v0 : FVec F S64x8192x16x2 .f32 := Host.absf main_arg0
  let main_cst : FVec F S_ .f32 := constant S_ .f32 0x7F800000#32
  let main_v1 : FVec F S64x8192x16x2 .f32 := broadcastInDim S64x8192x16x2 ![] bcast_S_S64x8192x16x2 main_cst
  let main_v2 : IVec S64x8192x16x2 1 := cmpf .olt main_v0 main_v1
  let main_c : IVec S_ 1 := constantI S_ 1 1#1
  let main_v3 : IVec S_ 1 := (fun x v => Host.reduce IntOp.andi x v reducesTo_S64x8192x16x2_S_d0_1_2_3 h_S_) main_v2 main_c
  main_v3
-- ==== Kernel.lean ====
abbrev S64x8192x16x2 : Shape := ⟨4, ![64, 8192, 16, 2]⟩
abbrev S64x8192 : Shape := ⟨2, ![64, 8192]⟩
abbrev S8x128x16x2 : Shape := ⟨4, ![8, 128, 16, 2]⟩
abbrev S8x128 : Shape := ⟨2, ![8, 128]⟩
abbrev S8x1 : Shape := ⟨2, ![8, 1]⟩
abbrev S8x128x16x1 : Shape := ⟨4, ![8, 128, 16, 1]⟩
abbrev S8x128x16 : Shape := ⟨3, ![8, 128, 16]⟩
abbrev S64x8192x1 : Shape := ⟨3, ![64, 8192, 1]⟩

abbrev nBuf : Space → Nat
  | .hbm => 3
  | .vmem => 5
  | .smem => 0
  | _ => 0

abbrev bufTy : (tb : Table) → Fin (tcTables nBuf tb) → BufTy
  | .hbm, ⟨0, _⟩ => ⟨S64x8192x16x2, .f32⟩
  | .hbm, ⟨1, _⟩ => ⟨S64x8192, .f32⟩
  | .hbm, ⟨2, _⟩ => ⟨S64x8192x1, .f32⟩
  | .local _ .vmem, ⟨0, _⟩ => ⟨S8x128x16x2, .f32⟩
  | .local _ .vmem, ⟨1, _⟩ => ⟨S8x128x16x2, .f32⟩
  | .local _ .vmem, ⟨2, _⟩ => ⟨S8x128, .f32⟩
  | .local _ .vmem, ⟨3, _⟩ => ⟨S8x128, .f32⟩
  | .local _ .vmem, ⟨4, _⟩ => ⟨S8x1, .i32⟩
  | _, _ => ⟨S64x8192x16x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x16x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x128x16x2_S8x128x16x2_0_0_0_0 : ∀ a, (![0, 0, 0, 0] : Fin 4 → Nat) a + S8x128x16x2.size a ≤ S8x128x16x2.size a
  h_S8x128x16x2 : 0 < S8x128x16x2.numel
  slices_S8x128x16x2_o0_0_0_0_S8x128x16x1 : S8x128x16x2.Slices ![0, 0, 0, 0] S8x128x16x1
  shapeCasts_S8x128x16x1_S8x128x16 : S8x128x16x1.ShapeCasts S8x128x16
  reduces_S8x128x16_S8x128 : S8x128x16.Reduces [2] S8x128
  iota_S8x128_d1_w32 : S8x128.Iotas .tc 32 [1]
  rotates_S8x128_d1 : S8x128.Rotates 1 none
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S8x128_o0_127_S8x1 : S8x128.Slices ![0, 127] S8x1
  bcast_S64x8192_S64x8192x1_0_1 : S64x8192.BroadcastsInDim S64x8192x1 (![0, 1] : Fin 2 → Fin S64x8192x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x16x2.size a ≤ S64x8192x16x2.size a
  hwx0_0 : ∀ i : grid0.Coords, EltTy.bits .f32 = 32 ∨ (Rect.block (s := S64x8192x16x2) S8x128x16x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x8192.size a
  hwx0_1 : ∀ i : grid0.Coords, EltTy.bits .f32 = 32 ∨ (Rect.block (s := S64x8192) S8x128.size (cc0_transform_1 i) (hinb0_1 i)).WholeWords (EltTy.packing .f32)

variable [Facts₀]

abbrev win0_0 : Pipeline.Window sig grid0 :=
  Pipeline.Window.ofSpec (Memref.whole main_arg0) S8x128x16x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x8192x16x2 : Shape := ⟨4, ![64, 8192, 16, 2]⟩
abbrev S64x8192x16x1 : Shape := ⟨4, ![64, 8192, 16, 1]⟩
abbrev S64x8192x16 : Shape := ⟨3, ![64, 8192, 16]⟩
abbrev S_ : Shape := ⟨0, ![]⟩
abbrev S64x8192 : Shape := ⟨2, ![64, 8192]⟩
abbrev S8192 : Shape := ⟨1, ![8192]⟩
abbrev S1x8192 : Shape := ⟨2, ![1, 8192]⟩
abbrev S64x8192x1 : Shape := ⟨3, ![64, 8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S64x8192x16x2, .f32⟩
  | .hbm, ⟨1, _⟩ => ⟨S64x8192x16x1, .f32⟩
  | .hbm, ⟨2, _⟩ => ⟨S64x8192x16, .f32⟩
  | .hbm, ⟨3, _⟩ => ⟨S_, .f32⟩
  | .hbm, ⟨4, _⟩ => ⟨S64x8192, .f32⟩
  | .hbm, ⟨5, _⟩ => ⟨S_, .f32⟩
  | .hbm, ⟨6, _⟩ => ⟨S64x8192, .f32⟩
  | .hbm, ⟨7, _⟩ => ⟨S64x8192, .i1⟩
  | .hbm, ⟨8, _⟩ => ⟨S8192, .i32⟩
  | .hbm, ⟨9, _⟩ => ⟨S1x8192, .i32⟩
  | .hbm, ⟨10, _⟩ => ⟨S_, .i32⟩
  | .hbm, ⟨11, _⟩ => ⟨S_, .i32⟩
  | .hbm, ⟨12, _⟩ => ⟨S64x8192, .i32⟩
  | .hbm, ⟨13, _⟩ => ⟨S64x8192, .i32⟩
  | .hbm, ⟨14, _⟩ => ⟨S64x8192, .i32⟩
  | .hbm, ⟨15, _⟩ => ⟨S_, .i32⟩
  | .hbm, ⟨16, _⟩ => ⟨S_, .i32⟩
  | .hbm, ⟨17, _⟩ => ⟨S64x8192, .i32⟩
  | .hbm, ⟨18, _⟩ => ⟨S1x8192, .i32⟩
  | .hbm, ⟨19, _⟩ => ⟨S64x8192, .i32⟩
  | .hbm, ⟨20, _⟩ => ⟨S64x8192, .i32⟩
  | .hbm, ⟨21, _⟩ => ⟨S64x8192, .f32⟩
  | .hbm, ⟨22, _⟩ => ⟨S64x8192x1, .f32⟩
  | _, _ => ⟨S64x8192x16x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_call1_c : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  slices_S64x8192x16x2_S64x8192x16x1_0_0_0_0 : S64x8192x16x2.Slices ![0, 0, 0, 0] S64x8192x16x1
  shapeCasts_S64x8192x16x1_S64x8192x16 : S64x8192x16x1.ShapeCasts S64x8192x16
  reducesTo_S64x8192x16_S64x8192_d2 : S64x8192x16.ReducesTo [2] S64x8192
  h_S_ : 0 < S_.numel
  bcast_S_S64x8192 : S_.BroadcastsInDim S64x8192 (![] : Fin 0 → Fin S64x8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S_S_ : S_.BroadcastsInDim S_ (![] : Fin 0 → Fin S_.rank)
  reduceWindows_S64x8192_S64x8192_w1s1p0_0_w8192s1p8191_0 : S64x8192.ReduceWindows (![1, 8192] : Fin 2 → Nat) ![1, 1] ![0, 8191] ![0, 0] S64x8192
  bcast_S64x8192_S64x8192x1_0_1 : S64x8192.BroadcastsInDim S64x8192x1 (![0, 1] : Fin 2 → Fin S64x8192x1.rank)

variable [Facts₀]

class Facts : Prop extends Facts₀ where

variable [Facts]
-- ==== Proof.LibPrefixMax.lean ====
/-
  The running maximum of an integer sequence over a floor of -1, characterised by its universal
  property (an upper bound that is attained), and the doubling step that computes the maximum of
  the last `2w` terms from the maxima of the last `w` terms.
-/
import Mathlib.Tactic

namespace Cert.PrefixMax

/-- `v` is the largest of `-1` and the terms `A t'` with `t' < n`. -/
def IsFloorMax (A : ℕ → ℤ) (n : ℕ) (v : ℤ) : Prop :=
  -1 ≤ v ∧ (∀ t', t' < n → A t' ≤ v) ∧ (v = -1 ∨ ∃ t', t' < n ∧ v = A t')

/-- There is one such value. -/
theorem IsFloorMax.unique {A : ℕ → ℤ} {n : ℕ} {v v' : ℤ} (h : IsFloorMax A n v) (h' : IsFloorMax A n v') :
    v = v' := by
  obtain ⟨h1, h2, h3⟩ := h
  obtain ⟨h1', h2', h3'⟩ := h'
  apply le_antisymm
  · rcases h3 with rfl | ⟨t, ht, rfl⟩
    · exact h1'
    · exact h2' t ht
  · rcases h3' with rfl | ⟨t, ht, rfl⟩
    · exact h1
    · exact h2 t ht

/-- Over no term at all it is the floor. -/
theorem IsFloorMax.zero (A : ℕ → ℤ) : IsFloorMax A 0 (-1) :=
  ⟨le_refl _, fun _ h => absurd h (Nat.not_lt_zero _), Or.inl rfl⟩

/-- It depends on the terms below `n` only. -/
theorem IsFloorMax.congr {A B : ℕ → ℤ} {n : ℕ} {v : ℤ} (h : IsFloorMax A n v) (e : ∀ t', t' < n → A t' = B t') :
    IsFloorMax B n v := by
  obtain ⟨h1, h2, h3⟩ := h
  refine ⟨h1, fun t' ht => (e t' ht) ▸ h2 t' ht, ?_⟩
  rcases h3 with h3 | ⟨t, ht, h3⟩
  · exact Or.inl h3
  · exact Or.inr ⟨t, ht, (e t ht) ▸ h3⟩

/-- `v` is the largest of the terms `a j'` with `j - w < j' ≤ j`: the last `w` terms up to `j`,
    fewer where the sequence starts. -/
def IsWinMax (a : ℕ → ℤ) (w j : ℕ) (v : ℤ) : Prop :=
  (∀ j', j' ≤ j → j < j' + w → a j' ≤ v) ∧ ∃ j', j' ≤ j ∧ j < j' + w ∧ v = a j'

/-- The last one term is the term. -/
theorem IsWinMax.one (a : ℕ → ℤ) (j : ℕ) : IsWinMax a 1 j (a j) :=
  ⟨fun j' h1 h2 => (show j' = j by omega) ▸ le_refl _, j, le_refl _, by omega, rfl⟩

/-- THE DOUBLING STEP. If `y j` is the maximum of the last `w` terms up to `j` (for the `j` below `n`), then
    the larger of `y j` and `y (j - w)` — the floor `-1` standing for the latter where `j < w` — is the
    maximum of the last `2w` terms: the two windows are adjacent. The terms are at least `-1`. -/
theorem IsWinMax.double {a : ℕ → ℤ} (lb : ∀ j, -1 ≤ a j) {w n : ℕ} {y : ℕ → ℤ}
    (hy : ∀ j, j < n → IsWinMax a w j (y j)) (j : ℕ) (hj : j < n) :
    IsWinMax a (2 * w) j (max (y j) (if w ≤ j then y (j - w) else -1)) := by
  obtain ⟨hub, j0, hj0, hj0w, hj0e⟩ := hy j hj
  have hlb : -1 ≤ y j := hj0e ▸ lb j0
  by_cases hwj : w ≤ j
  · rw [if_pos hwj]
    obtain ⟨hub', j1, hj1, hj1w, hj1e⟩ := hy (j - w) (by omega)
    refine ⟨fun j' h1 h2 => ?_, ?_⟩
    · by_cases h : j < j' + w
      · exact le_trans (hub j' h1 h) (le_max_left _ _)
      · exact le_trans (hub' j' (by omega) (by omega)) (le_max_right _ _)
    · rcases le_total (y j) (y (j - w)) with h | h
      · rw [max_eq_right h]; exact ⟨j1, by omega, by omega, hj1e⟩
      · rw [max_eq_left h]; exact ⟨j0, hj0, by omega, hj0e⟩
  · rw [if_neg hwj, max_eq_left hlb]
    exact ⟨fun j' h1 _ => hub j' h1 (by omega), j0, hj0, by omega, hj0e⟩

/-- FROM A TILE TO THE WHOLE SEQUENCE. If `c` is the running maximum of the terms before `n0` and `v` the
    maximum, within the tile that starts at `n0`, of a window reaching back to the tile's start, then the
    larger of the two is the running maximum through term `n0 + j`. -/
theorem IsFloorMax.of_tile {A : ℕ → ℤ} {n0 : ℕ} {c : ℤ} (hc : IsFloorMax A n0 c) {w j : ℕ} (hjw : j < w) {v : ℤ}
    (hv : IsWinMax (fun j => A (n0 + j)) w j v) : IsFloorMax A (n0 + j + 1) (max v c) := by
  obtain ⟨hc1, hc2, hc3⟩ := hc
  obtain ⟨hub, j0, hj0, _, hj0e⟩ := hv
  refine ⟨le_trans hc1 (le_max_right _ _), fun t' ht' => ?_, ?_⟩
  · by_cases h : t' < n0
    · exact le_trans (hc2 t' h) (le_max_right _ _)
    · have h' : A (n0 + (t' - n0)) ≤ v := hub (t' - n0) (by omega) (by omega)
      rw [show n0 + (t' - n0) = t' by omega] at h'
      exact le_trans h' (le_max_left _ _)
  · rcases le_total v c with h | h
    · rw [max_eq_right h]
      rcases hc3 with h3 | ⟨t', ht', e⟩
      · exact Or.inl h3
      · exact Or.inr ⟨t', by omega, e⟩
    · rw [max_eq_left h]; exact Or.inr ⟨n0 + j0, by omega, hj0e⟩

end Cert.PrefixMax
-- ==== Proof.LibSignedWords.lean ====
/-
  32-bit words read as signed integers: the signed maximum is the maximum of the readings, a small
  natural number's word reads as that number, and a left fold of signed maxima is an upper bound of
  its terms that is its initial value or one of them.
-/
import Idealize.ShloMosaic.PureOps
import Mathlib.Tactic

namespace Cert.Words

open Idealize.ShloMosaic

/-- The signed maximum of two words reads as the maximum of their readings. -/
theorem maxsi_toInt (x y : BitVec 32) : (IntOp.maxsi x y).toInt = max x.toInt y.toInt := by
  unfold IntOp.maxsi
  simp only [BitVec.slt, decide_eq_true_eq]
  split_ifs with h
  · exact (max_eq_left (le_of_lt h)).symm
  · exact (max_eq_right (not_lt.mp h)).symm

/-- It is one of the two. -/
theorem maxsi_eq_or (x y : BitVec 32) : IntOp.maxsi x y = x ∨ IntOp.maxsi x y = y := by
  unfold IntOp.maxsi
  split_ifs
  · exact Or.inl rfl
  · exact Or.inr rfl

/-- The word of a natural number below 2^31 reads as that number. -/
theorem toInt_ofNat (k : ℕ) (h : k < 2147483648) : (BitVec.ofNat 32 k).toInt = (k : ℤ) := by
  rw [BitVec.toInt_eq_toNat_cond, BitVec.toNat_ofNat]
  have e : k % 2 ^ 32 = k := Nat.mod_eq_of_lt (by omega)
  rw [e, if_pos (by omega)]

theorem toInt_neg_one : (4294967295#32 : BitVec 32).toInt = -1 := by decide

theorem toInt_min : (2147483648#32 : BitVec 32).toInt = -2147483648 := by decide

/-- Two words with one signed reading are one word. -/
theorem eq_of_toInt {x y : BitVec 32} (h : x.toInt = y.toInt) : x = y := BitVec.eq_of_toInt_eq h

/-- A LEFT FOLD OF SIGNED MAXIMA from `v` over the terms `g n`, `n` in a list: at least `v`, at least every
    term, and either `v` itself or one of the terms. -/
theorem foldl_maxsi {α : Type} (g : α → BitVec 32) (l : List α) (v : BitVec 32) :
    v.toInt ≤ (l.foldl (fun r n => IntOp.maxsi r (g n)) v).toInt
      ∧ (∀ n ∈ l, (g n).toInt ≤ (l.foldl (fun r n => IntOp.maxsi r (g n)) v).toInt)
      ∧ (l.foldl (fun r n => IntOp.maxsi r (g n)) v = v ∨ ∃ n ∈ l, l.foldl (fun r n => IntOp.maxsi r (g n)) v = g n) := by
  induction l generalizing v with
  | nil => exact ⟨le_refl _, fun _ h => absurd h (List.not_mem_nil), Or.inl rfl⟩
  | cons a l ih =>
    rw [List.foldl_cons]
    obtain ⟨h1, h2, h3⟩ := ih (IntOp.maxsi v (g a))
    have hm := maxsi_toInt v (g a)
    refine ⟨le_trans (by rw [hm]; exact le_max_left _ _) h1, fun n hn => ?_, ?_⟩
    · rcases List.mem_cons.mp hn with rfl | hn
      · exact le_trans (by rw [hm]; exact le_max_right _ _) h1
      · exact h2 n hn
    · rcases h3 with h3 | ⟨n, hn, h3⟩
      · rcases maxsi_eq_or v (g a) with e | e
        · exact Or.inl (h3.trans e)
        · exact Or.inr ⟨a, List.mem_cons_self, h3.trans e⟩
      · exact Or.inr ⟨n, List.mem_cons_of_mem _ hn, h3⟩

end Cert.Words
-- ==== Proof.Spec.lean ====
/-
  THE SPECIFICATION. For an onset roll `x` of shape [64, 8192, 16, 2] (batch, frame, note, channel), frame
  `(b, t)` has an onset when the largest channel-0 entry over its 16 notes is positive; the result at `(b, t)`
  is `t - last`, converted to a float, where `last` is the index of the latest frame `t' ≤ t` of row `b` with
  an onset, and `-1` when there is none. `last` is the running maximum, over a floor of `-1`, of the sequence
  that is `t'` at an onset frame and `-1` elsewhere; any word with that universal property gives the result.
-/
import Idealize.ShloMosaic.PureOps.Ideal
import Idealize.ShloMosaic.Lib.ValueIdx
import proofs.«146377_j74165495267420_2_alg».proof.Proof.LibPrefixMax
import proofs.«146377_j74165495267420_2_alg».proof.Proof.LibSignedWords

noncomputable section

namespace Cert.OnsetSpec

open Idealize.ShloMosaic Idealize.ShloMosaic.ValueIdx Cert.PrefixMax

abbrev SIn : Shape := ⟨4, ![64, 8192, 16, 2]⟩
abbrev SOut : Shape := ⟨2, ![64, 8192]⟩

/-- The largest channel-0 entry of frame `(b, t)` over its 16 notes, from -∞. -/
def frameMax (x : SIn.Idx → Ideal .f32) (b : Fin 64) (t : Fin 8192) : Ideal .f32 :=
  (Finset.univ : Finset (Fin 16)).fold max (FloatOps.ofBits (F := Ideal) .f32 0xFF800000#32)
    (fun k => x (ix4 b t k (0 : Fin 2)))

/-- The word of `t` where frame `(b, t)` has an onset, of `-1` elsewhere. -/
def onsetIdx (x : SIn.Idx → Ideal .f32) (b : Fin 64) (t : Fin 8192) : BitVec 32 :=
  Scalar.select (FloatOps.cmpf (F := Ideal) .ogt (frameMax x b t) (FloatOps.ofBits (F := Ideal) .f32 0x00000000#32))
    (BitVec.ofNat 32 t.val) 4294967295#32

/-- The same over every natural number (`-1` past the last frame). -/
def onsetWord (x : SIn.Idx → Ideal .f32) (b : Fin 64) (t : ℕ) : BitVec 32 :=
  if h : t < 8192 then onsetIdx x b ⟨t, h⟩ else 4294967295#32

/-- Row `b`'s sequence of onset indices, as integers. -/
def onsetSeq (x : SIn.Idx → Ideal .f32) (b : Fin 64) (t : ℕ) : ℤ := (onsetWord x b t).toInt

theorem onsetSeq_of_lt (x : SIn.Idx → Ideal .f32) (b : Fin 64) (t : ℕ) (h : t < 8192) :
    onsetSeq x b t = (onsetIdx x b ⟨t, h⟩).toInt := by
  unfold onsetSeq onsetWord; rw [dif_pos h]

/-- Every term is a frame index or `-1`: at least `-1`. -/
theorem onsetSeq_lb (x : SIn.Idx → Ideal .f32) (b : Fin 64) (t : ℕ) : -1 ≤ onsetSeq x b t := by
  unfold onsetSeq onsetWord
  split_ifs with h
  · unfold onsetIdx Scalar.select
    split_ifs
    · rw [Words.toInt_ofNat _ (by omega)]; omega
    · rw [Words.toInt_neg_one]
  · rw [Words.toInt_neg_one]

/-- The latest onset at or before frame `t` of row `b`: the signed maxima of the onset indices folded from `-1`. -/
def lastOnset (x : SIn.Idx → Ideal .f32) (b : Fin 64) (t : ℕ) : BitVec 32 :=
  (List.range (t + 1)).foldl (fun r t' => IntOp.maxsi r (onsetWord x b t')) 4294967295#32

/-- It is the running maximum of the sequence through term `t`. -/
theorem lastOnset_isFloorMax (x : SIn.Idx → Ideal .f32) (b : Fin 64) (t : ℕ) :
    IsFloorMax (onsetSeq x b) (t + 1) (lastOnset x b t).toInt := by
  obtain ⟨h1, h2, h3⟩ := Words.foldl_maxsi (onsetWord x b) (List.range (t + 1)) 4294967295#32
  refine ⟨by rw [← Words.toInt_neg_one]; exact h1, fun t' ht' => h2 t' (List.mem_range.mpr ht'), ?_⟩
  rcases h3 with h3 | ⟨n, hn, h3⟩
  · exact Or.inl (by unfold lastOnset; rw [h3, Words.toInt_neg_one])
  · exact Or.inr ⟨n, List.mem_range.mp hn, by unfold lastOnset onsetSeq; rw [h3]⟩

/-- THE RESULT at `(b, t)`: `t` less the latest onset, as a float. -/
def G (x : SIn.Idx → Ideal .f32) (i : SOut.Idx) : Ideal .f32 :=
  FloatOps.sitofp (F := Ideal) .f32 (IntOp.subi (BitVec.ofNat 32 (i 1).val) (lastOnset x (i 0) (i 1).val))

/-- Any word that reads as the running maximum through frame `t` gives the result at `(b, t)`. -/
theorem G_of_isFloorMax (x : SIn.Idx → Ideal .f32) (b : Fin 64) (t : Fin 8192) (v : BitVec 32)
    (h : IsFloorMax (onsetSeq x b) (t.val + 1) v.toInt) :
    FloatOps.sitofp (F := Ideal) .f32 (IntOp.subi (BitVec.ofNat 32 t.val) v) = G x (ix2 b t) := by
  have e : v = lastOnset x b t.val := Words.eq_of_toInt (h.unique (lastOnset_isFloorMax x b t.val))
  rw [e]; rfl

end Cert.OnsetSpec

end
-- ==== Proof.RefValue.lean ====
/-
  THE REFERENCE'S VALUE. The reference program computes, for an onset roll `x` of shape [64, 8192, 16, 2]: the
  largest channel-0 entry of each frame over its 16 notes (a reduction from -∞), the word of the frame's index
  where that maximum is positive and of `-1` elsewhere, the running maximum of those words along each row (a
  window of 8192 positions ending at the frame, the positions before the row's start holding the least word),
  and the frame's index less that running maximum, as a float. This module reads the two folds by hand — the
  frame maximum as the specification's `frameMax`, the window maximum through its universal property — and
  concludes that the program's result at `(b, t, 0)` is the specification's `G` at `(b, t)`.
-/
import proofs.«146377_j74165495267420_2_alg».proof.Proof.RefRead
import proofs.«146377_j74165495267420_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic
  Idealize.ShloMosaic.ValueIdx Cert.PrefixMax Cert.OnsetSpec

/-! ## The frame maximum -/

/-- The reshaped slice at `(b, t, k)` is the input's channel-0 entry of note `k` of frame `(b, t)`. -/
theorem val_main_v1_ix3 (x0 : (⟨S64x8192x16x2, .f32⟩ : BufTy).Contents (Elt Ideal)) (b : Fin 64) (t : Fin 8192)
    (k : Fin 16) : val_main_v1 (F := Ideal) x0 (ix3 b t k) = x0 (ix4 b t k (0 : Fin 2)) := by
  rw [val_main_v1_apply, val_main_v0_apply]
  refine congrArg x0 ?_
  have hb := b.isLt
  have ht := t.isLt
  have hk := k.isLt
  funext a
  refine Fin.ext ?_
  match a with
  | ⟨0, _⟩ => show ((b.val * 8192 + t.val) * 16 + k.val) / 131072 = b.val; omega
  | ⟨1, _⟩ => show ((b.val * 8192 + t.val) * 16 + k.val) / 16 % 8192 = t.val; omega
  | ⟨2, _⟩ => show ((b.val * 8192 + t.val) * 16 + k.val) / 1 % 16 = k.val; omega
  | ⟨3, _⟩ => rfl

/-- The reduction over the notes, at `(b, t)`, is the specification's frame maximum. -/
theorem val_main_v2_ix2 (x0 : (⟨S64x8192x16x2, .f32⟩ : BufTy).Contents (Elt Ideal)) (b : Fin 64) (t : Fin 8192) :
    val_main_v2 (F := Ideal) x0 (ix2 b t) = frameMax x0 b t := by
  have h : S64x8192x16.Reduces [2] S64x8192 := by decide
  unfold val_main_v2 frameMax
  rw [Host.reduce_eq_fold_single (FloatOps.maximumf (F := Ideal) (φ := .f32)) (val_main_v1 (F := Ideal) x0)
    (val_main_cst (F := Ideal)) reducesTo_S64x8192x16_S64x8192_d2 h h_S_ (ix2 b t)]
  refine Finset.fold_congr fun (k : Fin 16) _ => ?_
  have e : h.lift (ix2 b t) k = ix3 b t k := by
    funext c
    refine Fin.ext ?_
    match c with
    | ⟨0, _⟩ => rfl
    | ⟨1, _⟩ => rfl
    | ⟨2, _⟩ => rfl
  show val_main_v1 (F := Ideal) x0 (h.lift (ix2 b t) k) = x0 (ix4 b t k (0 : Fin 2))
  rw [e, val_main_v1_ix3]

/-! ## The onset index -/

/-- The selected word at `(b, t)` is the specification's onset index. -/
theorem val_main_v7_ix2 (x0 : (⟨S64x8192x16x2, .f32⟩ : BufTy).Contents (Elt Ideal)) (b : Fin 64) (t : Fin 8192) :
    val_main_v7 (F := Ideal) x0 (ix2 b t) = onsetIdx x0 b t := by
  rw [val_main_v7_apply, val_main_v4_apply, val_main_v2_ix2, val_main_v3_apply, val_main_cst_0_apply,
    val_main_call0_v1_apply, val_main_v6_apply, val_main_v5_apply, val_main_call0_v2_apply,
    val_main_call0_v0_apply, val_main_c_apply]
  rfl

/-! ## The window maximum -/

/-- The window's shape: one row of 8192 columns. -/
abbrev W : Shape := ⟨2, ![1, 8192]⟩

theorem W_numel : W.numel = 8192 := by decide

/-- The value the window holds outside the operand: the least word. -/
theorem init_eq : val_main_call1_v0 (F := Ideal) (Shape.Idx.first h_S_) = 2147483648#32 := by
  rw [val_main_call1_v0_apply, val_main_call1_c_apply]

/-- The padded operand's coordinates of position `n` of the window at `(b, t)`. -/
def winPos (b : Fin 64) (t : Fin 8192) (n : Fin W.numel) : Fin 2 → ℕ :=
  fun a => ((ix2 b t) (a.cast rfl)).val * (![1, 1] : Fin 2 → ℕ) a + (W.rowMajor.symm n a).val

/-- Position `n` of the window sits at row offset 0 and column `n`. -/
theorem winPos_val (b : Fin 64) (t : Fin 8192) (n : Fin W.numel) :
    winPos b t n 0 = b.val ∧ winPos b t n 1 = t.val + n.val := by
  have h0 : (W.rowMajor.symm n 0).val < 1 := (W.rowMajor.symm n 0).isLt
  have e : n.val = (W.rowMajor.symm n 0).val * 8192 + (W.rowMajor.symm n 1).val := by
    have := Shape.rowMajor_val_two (d := ![1, 8192]) (W.rowMajor.symm n)
    rw [Equiv.apply_symm_apply] at this
    exact this
  constructor
  · show b.val * 1 + (W.rowMajor.symm n 0).val = b.val; omega
  · show t.val * 1 + (W.rowMajor.symm n 1).val = t.val + n.val; omega

/-- Whether position `n` of the window at `(b, t)` is inside the operand. -/
def winInside (b : Fin 64) (t : Fin 8192) (n : Fin W.numel) : Prop :=
  ∀ a : Fin 2, (![0, 8191] : Fin 2 → ℕ) a ≤ winPos b t n a
    ∧ winPos b t n a - (![0, 8191] : Fin 2 → ℕ) a < S64x8192.size a

/-- It is inside when its column is at or after the row's start. -/
theorem winInside_of_le (b : Fin 64) (t : Fin 8192) (n : Fin W.numel) (h : 8191 ≤ t.val + n.val) :
    winInside b t n := by
  obtain ⟨p0, p1⟩ := winPos_val b t n
  have hb := b.isLt
  have ht := t.isLt
  have hn : n.val < 8192 := lt_of_lt_of_eq n.isLt W_numel
  exact fun a =>
    match a with
    | ⟨0, _⟩ => ⟨Nat.zero_le _, by show winPos b t n 0 - 0 < 64; omega⟩
    | ⟨1, _⟩ => ⟨by show 8191 ≤ winPos b t n 1; omega, by show winPos b t n 1 - 8191 < 8192; omega⟩

/-- A WINDOW MAXIMUM at `(b, t)`, over an operand `x` from an initial value: the left fold of signed maxima,
    from the initial value, of one term per position — the operand's element of frame `t'` at position
    `8191 - t + t'`, the initial value at the positions before the row's start. -/
theorem reduceWindow_terms (x : S64x8192.Idx → BitVec 32) (init : S_.Idx → BitVec 32)
    (hw : S64x8192.ReduceWindows (![1, 8192] : Fin 2 → ℕ) ![1, 1] ![0, 8191] ![0, 0] S64x8192) (hu : 0 < S_.numel)
    (b : Fin 64) (t : Fin 8192) :
    ∃ g : Fin W.numel → BitVec 32,
      Host.reduceWindow IntOp.maxsi ![1, 8192] ![1, 1] ![0, 8191] ![0, 0] x init hw hu (ix2 b t)
        = (List.finRange W.numel).foldl (fun r n => IntOp.maxsi r (g n)) (init (Shape.Idx.first hu))
      ∧ (∀ (n : Fin W.numel) (t' : Fin 8192), t.val + n.val = 8191 + t'.val → g n = x (ix2 b t'))
      ∧ (∀ n : Fin W.numel, t.val + n.val < 8191 → g n = init (Shape.Idx.first hu)) := by
  unfold Host.reduceWindow
  refine ⟨_, rfl, fun n t' h => ?_, fun n h => ?_⟩
  · obtain ⟨p0, p1⟩ := winPos_val b t n
    have hin : winInside b t n := winInside_of_le b t n (by omega)
    beta_reduce
    split
    · refine congrArg x (funext fun a => Fin.ext ?_)
      match a with
      | ⟨0, _⟩ => show winPos b t n 0 - 0 = b.val; omega
      | ⟨1, _⟩ => show winPos b t n 1 - 8191 = t'.val; omega
    · rename_i hno
      exact absurd hin hno
  · obtain ⟨_, p1⟩ := winPos_val b t n
    beta_reduce
    split
    · rename_i hin
      have h1 : 8191 ≤ winPos b t n 1 := (hin 1).1
      omega
    · rfl

/-- THE WINDOW MAXIMUM at `(b, t)` reads as the running maximum, over the floor `-1`, of row `b`'s onset
    indices through frame `t`: it is at least every one of them (frame `t' ≤ t` sits at position
    `8191 - t + t'`), so at least `-1` and not the padding's word, hence one of the inside terms. -/
theorem val_main_v8_isFloorMax (x0 : (⟨S64x8192x16x2, .f32⟩ : BufTy).Contents (Elt Ideal)) (b : Fin 64)
    (t : Fin 8192) : IsFloorMax (onsetSeq x0 b) (t.val + 1) (val_main_v8 (F := Ideal) x0 (ix2 b t)).toInt := by
  have ht := t.isLt
  obtain ⟨g, hfold, gin, gout⟩ := reduceWindow_terms (val_main_v7 (F := Ideal) x0) (val_main_call1_v0 (F := Ideal))
    reduceWindows_S64x8192_S64x8192_w1s1p0_0_w8192s1p8191_0 h_S_ b t
  have e : val_main_v8 (F := Ideal) x0 (ix2 b t)
      = (List.finRange W.numel).foldl (fun r n => IntOp.maxsi r (g n)) 2147483648#32 := by
    rw [← init_eq]; exact hfold
  rw [init_eq] at gout
  rw [e]
  obtain ⟨_, h2, h3⟩ := Words.foldl_maxsi g (List.finRange W.numel) 2147483648#32
  have hub : ∀ t', t' < t.val + 1 → onsetSeq x0 b t'
      ≤ ((List.finRange W.numel).foldl (fun r n => IntOp.maxsi r (g n)) 2147483648#32).toInt := by
    intro t' ht'
    have hlt : t' < 8192 := by omega
    have hn : 8191 - t.val + t' < W.numel := by rw [W_numel]; omega
    have := h2 ⟨8191 - t.val + t', hn⟩ (List.mem_finRange _)
    rw [gin ⟨8191 - t.val + t', hn⟩ ⟨t', hlt⟩ (by show t.val + (8191 - t.val + t') = 8191 + t'; omega),
      val_main_v7_ix2] at this
    rw [onsetSeq_of_lt x0 b t' hlt]
    exact this
  have hge := le_trans (onsetSeq_lb x0 b t.val) (hub t.val (by omega))
  have hne : (List.finRange W.numel).foldl (fun r n => IntOp.maxsi r (g n)) 2147483648#32 ≠ 2147483648#32 :=
    fun e' => by
      rw [e', Words.toInt_min] at hge
      omega
  refine ⟨hge, hub, Or.inr ?_⟩
  rcases h3 with h3 | ⟨n, _, h3⟩
  · exact absurd h3 hne
  · have hn : n.val < 8192 := lt_of_lt_of_eq n.isLt W_numel
    by_cases hin : 8191 ≤ t.val + n.val
    · have hlt : t.val + n.val - 8191 < 8192 := by omega
      refine ⟨t.val + n.val - 8191, by omega, ?_⟩
      rw [h3, gin n ⟨t.val + n.val - 8191, hlt⟩ (by show t.val + n.val = 8191 + (t.val + n.val - 8191); omega),
        val_main_v7_ix2, onsetSeq_of_lt x0 b _ hlt]
    · exact absurd (h3.trans (gout n (by omega))) hne

/-! ## The result -/

/-- THE REFERENCE'S RESULT at `(b, t, 0)` is the specification's at `(b, t)`. -/
theorem val_main_v13_is_G (x0 : (⟨S64x8192x16x2, .f32⟩ : BufTy).Contents (Elt Ideal)) (i : S64x8192x1.Idx) :
    val_main_v13 (F := Ideal) x0 i = G x0 (ix2 (i 0) (i 1)) := by
  have e : idx_main_v13 i = (ix2 (i 0) (i 1) : S64x8192.Idx) := by
    funext a
    match a with
    | ⟨0, _⟩ => rfl
    | ⟨1, _⟩ => rfl
  rw [val_main_v13_apply, val_main_v12_apply, val_main_v11_apply, val_main_v10_apply, val_main_v9_apply,
    val_main_v5_apply, e]
  exact G_of_isFloorMax x0 (i 0) (i 1) _ (val_main_v8_isFloorMax x0 (i 0) (i 1))

end Cert.ReferenceIdeal.RefValue

end
-- ==== Proof.KernelPieces.lean ====
/-
  What one run of the kernel body leaves behind, as values. At a grid point the body reads the input block `x0`,
  and the carried column `xs0` (the running maximum up to the previous tile; at the first tile of a row block
  the body first resets it to the column of `-1`), and leaves in the output block the payload "frame index less
  running maximum" and in the carried column the running maximum's last lane. Each is the body's own pure term of
  what it read.
-/
import proofs.«146377_j74165495267420_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Away from the first tile: the output block is the payload of the input block and the carried column. -/
theorem out_B (c : Dev nD) (i : grid0.Coords) (a2 : Memref sig .tc .vmem S8x128x16x2 .f32) (h2 : a2.IsWhole)
    (a3 : Memref sig .tc .vmem S8x128 .f32) (h3 : a3.IsWhole) (a4 : Memref sig .tc .vmem S8x1 .i32) (h4 : a4.IsWhole)
    (hc : ¬cond0_0 i) (x0 : Vec F S8x128x16x2 .f32) (xs0 : Vec F S8x1 .i32) :
    out0_B_1 c i a2 h2 a3 h3 a4 h4 hc x0 xs0 = k0_pay2 (k0_pay5 i) (k0_pay6 i x0) (k0_pay7 i x0) xs0 := by
  unfold out0_B_1
  rw [View.read_writes_eq_canon _ _ _ (cover0_B_1 c i a2 h2 a3 h3 a4 h4 hc x0 xs0)]
  unfold kernelRun0_B
  dsimp only
  sl_unfold_words
  rw [View.canon_unit_zero hz2]
  simp only [View.readAt_eq_ld, h2.read_unread, h4.read_unread, View.ld_unit_zero (S := S8x128x16x2) hz4,
    View.ld_unit_zero (S := S8x1) hz2]

/-- Away from the first tile: the carried column becomes the running maximum's last lane. -/
theorem sout_B (c : Dev nD) (i : grid0.Coords) (a2 : Memref sig .tc .vmem S8x128x16x2 .f32) (h2 : a2.IsWhole)
    (a3 : Memref sig .tc .vmem S8x128 .f32) (h3 : a3.IsWhole) (a4 : Memref sig .tc .vmem S8x1 .i32) (h4 : a4.IsWhole)
    (hc : ¬cond0_0 i) (x0 : Vec F S8x128x16x2 .f32) (xs0 : Vec F S8x1 .i32) :
    sout0_B_0 c i a2 h2 a3 h3 a4 h4 hc x0 xs0 = k0_pay3 (k0_pay6 i x0) (k0_pay7 i x0) xs0 := by
  unfold sout0_B_0
  rw [View.read_writes_eq_canon _ _ _ (scover0_B_0 c i a2 h2 a3 h3 a4 h4 hc x0 xs0)]
  unfold kernelRun0_B
  dsimp only
  sl_unfold_words
  rw [View.canon_unit_zero hz2]
  simp only [View.readAt_eq_ld, h2.read_unread, h4.read_unread, View.ld_unit_zero (S := S8x128x16x2) hz4,
    View.ld_unit_zero (S := S8x1) hz2]

/-- At the first tile of a row block the carried column read is the column of `-1` just stored. -/
theorem out_A (c : Dev nD) (i : grid0.Coords) (a2 : Memref sig .tc .vmem S8x128x16x2 .f32) (h2 : a2.IsWhole)
    (a3 : Memref sig .tc .vmem S8x128 .f32) (h3 : a3.IsWhole) (a4 : Memref sig .tc .vmem S8x1 .i32) (h4 : a4.IsWhole)
    (hc : cond0_0 i) (x0 : Vec F S8x128x16x2 .f32) :
    out0_A_1 c i a2 h2 a3 h3 a4 h4 hc x0
      = k0_pay2 (F := F) (k0_pay5 i) (k0_pay6 i x0) (k0_pay7 i x0) (k0_pay4 : IVec S8x1 32) := by
  unfold out0_A_1
  rw [View.read_writes_eq_canon _ _ _ (cover0_A_1 c i a2 h2 a3 h3 a4 h4 hc x0)]
  unfold kernelRun0_A
  dsimp only
  sl_unfold_words
  rw [View.canon_unit_zero hz2]
  simp only [View.readAt_eq_ld, h2.read_unread, View.ld_unit_zero (S := S8x128x16x2) hz4,
    View.readCov_unit_zero (S := S8x1) _ hz2]

theorem sout_A (c : Dev nD) (i : grid0.Coords) (a2 : Memref sig .tc .vmem S8x128x16x2 .f32) (h2 : a2.IsWhole)
    (a3 : Memref sig .tc .vmem S8x128 .f32) (h3 : a3.IsWhole) (a4 : Memref sig .tc .vmem S8x1 .i32) (h4 : a4.IsWhole)
    (hc : cond0_0 i) (x0 : Vec F S8x128x16x2 .f32) :
    sout0_A_0 c i a2 h2 a3 h3 a4 h4 hc x0
      = k0_pay3 (F := F) (k0_pay6 i x0) (k0_pay7 i x0) (k0_pay4 : IVec S8x1 32) := by
  unfold sout0_A_0
  rw [View.read_writes_eq_canon _ _ _ (scover0_A_0 c i a2 h2 a3 h3 a4 h4 hc x0)]
  unfold kernelRun0_A
  dsimp only
  sl_unfold_words
  rw [View.canon_cons_unit_zero (S := S8x1) hz2]
  simp only [View.readAt_eq_ld, h2.read_unread, View.ld_unit_zero (S := S8x128x16x2) hz4,
    View.readCov_unit_zero (S := S8x1) _ hz2]

end Cert.KernelIdeal.Pieces

end
-- ==== Proof.KernelScan.lean ====
/-
  The kernel body's arithmetic at one grid point, read lane by lane. A tile holds 8 rows of 128 consecutive
  frames. Lane `j` of row `r` starts at the frame's onset index (its global frame number where the frame has an
  onset, `-1` elsewhere); seven rounds, with shifts 1, 2, 4, …, 64, each replace a lane by the signed maximum of
  itself and the lane `shift` places before it (`-1` where there is none), so that after the rounds lane `j`
  holds the maximum of the tile's lanes `0 … j`; the larger of that and the carried value — the running maximum of
  the row's frames before the tile — is the running maximum through the lane's frame.
-/
import proofs.«146377_j74165495267420_2_alg».proof.Proof.Gen.KernelIdeal.Skeleton
import proofs.«146377_j74165495267420_2_alg».proof.Proof.Spec
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.Scan

open Cert.KernelIdeal Cert.KernelIdeal.Gen Idealize.ShloMosaic Idealize.ShloMosaic.ValueIdx Cert.PrefixMax Cert.OnsetSpec

/-! ## One round -/

/-- One round with shift `s`: each lane against the lane `s` places before it in its row, `-1` where the row has
    no such lane (the rotation brings the row's end there, and the lane test discards it). -/
def round (s : BitVec 32) (y : IVec S8x128 32) : IVec S8x128 32 :=
  maxsi y (select (cmpi .sge (iota .tc S8x128 32 [1] iota_S8x128_d1_w32) (broadcast S8x128 s))
    (dynamicRotate 1 s none y rotates_S8x128_d1) (broadcast S8x128 4294967295#32))

/-- A round at lane `j` of row `r`. -/
theorem round_apply (w : ℕ) (hw : w < 128) (y : IVec S8x128 32) (r : Fin 8) (j : Fin 128) :
    round (BitVec.ofNat 32 w) y (ix2 r j)
      = IntOp.maxsi (y (ix2 r j)) (if h : w ≤ j.val then y (ix2 r ⟨j.val - w, by omega⟩) else 4294967295#32) := by
  have hcmp : IntOp.cmpi .sge (BitVec.ofNat 32 (0 * 128 + j.val)) (BitVec.ofNat 32 w) = BitVec.ofBool (decide (w ≤ j.val)) := by
    unfold IntOp.cmpi
    simp only [BitVec.sle, Words.toInt_ofNat w (by omega), Words.toInt_ofNat (0 * 128 + j.val) (by omega)]
    congr 1
    simp
  show IntOp.maxsi (y (ix2 r j)) (Scalar.select (IntOp.cmpi .sge (BitVec.ofNat 32 (0 * 128 + j.val)) (BitVec.ofNat 32 w))
    (dynamicRotate 1 (BitVec.ofNat 32 w) none y rotates_S8x128_d1 (ix2 r j)) 4294967295#32) = _
  rw [hcmp]
  by_cases h : w ≤ j.val
  · rw [dif_pos h, decide_eq_true h]
    show IntOp.maxsi _ (Scalar.select 1#1 _ _) = _
    rw [select_one]
    refine congrArg (IntOp.maxsi (y (ix2 r j))) ?_
    exact dynamicRotate_apply 1 _ y _ (ix2 r j) (ix2 r ⟨j.val - w, by omega⟩) (fun b => by
      match b with
      | ⟨0, h0⟩ => exact (if_neg (fun e => absurd (congrArg Fin.val e) Nat.zero_ne_one)).symm
      | ⟨1, _⟩ =>
        show j.val - w = if ((1 : Fin 2) = 1) then (j.val + 128 - (BitVec.ofNat 32 w).toNat % 128) % 128 else j.val
        rw [if_pos rfl, BitVec.toNat_ofNat, Nat.mod_eq_of_lt (show w < 2 ^ 32 by omega)]
        omega)
  · rw [dif_neg h, decide_eq_false h]
    show IntOp.maxsi _ (Scalar.select 0#1 _ _) = _
    rw [select_zero]

/-- A round doubles the window: from the maxima of the last `w` lanes to those of the last `2w`. -/
theorem round_isWinMax {a : ℕ → ℤ} (lb : ∀ j, -1 ≤ a j) (w : ℕ) (hw : w < 128) (y : IVec S8x128 32) (r : Fin 8)
    (hy : ∀ j : Fin 128, IsWinMax a w j.val (y (ix2 r j)).toInt) (j : Fin 128) :
    IsWinMax a (2 * w) j.val (round (BitVec.ofNat 32 w) y (ix2 r j)).toInt := by
  rw [round_apply w hw, Words.maxsi_toInt]
  have key := IsWinMax.double lb (w := w) (n := 128)
    (y := fun j => if h : j < 128 then (y (ix2 r ⟨j, h⟩)).toInt else -1)
    (fun j hj => by simp only [dif_pos hj]; exact hy ⟨j, hj⟩) j.val j.isLt
  simp only [dif_pos j.isLt] at key
  have e2 : (if h : w ≤ j.val then y (ix2 r ⟨j.val - w, by omega⟩) else 4294967295#32).toInt
      = if w ≤ j.val then (if h : j.val - w < 128 then (y (ix2 r ⟨j.val - w, h⟩)).toInt else -1) else -1 := by
    by_cases h : w ≤ j.val
    · rw [dif_pos h, if_pos h, dif_pos (show j.val - w < 128 by omega)]
    · rw [dif_neg h, if_neg h]; exact Words.toInt_neg_one
  rw [e2]
  exact key

/-! ## The seven rounds -/

/-- The rounds with shifts 1, 2, 4, 8, 16, 32, 64, in that order. -/
def scan (y : IVec S8x128 32) : IVec S8x128 32 :=
  round 64#32 (round 32#32 (round 16#32 (round 8#32 (round 4#32 (round 2#32 (round 1#32 y))))))

/-- After them lane `j` holds the maximum of its row's lanes `0 … j` (a window of 128 reaches the row's start). -/
theorem scan_isWinMax {a : ℕ → ℤ} (lb : ∀ j, -1 ≤ a j) (y : IVec S8x128 32) (r : Fin 8)
    (hy : ∀ j : Fin 128, (y (ix2 r j)).toInt = a j.val) (j : Fin 128) :
    IsWinMax a 128 j.val (scan y (ix2 r j)).toInt := by
  have h1 : ∀ j : Fin 128, IsWinMax a 1 j.val (y (ix2 r j)).toInt := fun j => (hy j) ▸ IsWinMax.one a j.val
  have h2 := round_isWinMax lb 1 (by omega) y r h1
  have h4 := round_isWinMax lb 2 (by omega) _ r h2
  have h8 := round_isWinMax lb 4 (by omega) _ r h4
  have h16 := round_isWinMax lb 8 (by omega) _ r h8
  have h32 := round_isWinMax lb 16 (by omega) _ r h16
  have h64 := round_isWinMax lb 32 (by omega) _ r h32
  exact round_isWinMax lb 64 (by omega) _ r h64 j

/-! ## The body's payloads over the rounds -/

/-- The largest channel-0 entry over the 16 notes, for every frame of the tile. -/
def tileMax (v3 : Vec Ideal S8x128x16x2 .f32) : FVec Ideal S8x128 .f32 :=
  multiReduction (F := Ideal) .maximumf [2] S8x128
    (shapeCast S8x128x16 (extractStridedSlice S8x128x16x1 ![0, 0, 0, 0] v3 slices_S8x128x16x2_o0_0_0_0_S8x128x16x1)
      shapeCasts_S8x128x16x1_S8x128x16) 0xFF800000#32 reduces_S8x128x16_S8x128 (.inl rfl) rfl

/-- The lanes the rounds start from: the frame's global number where the frame has an onset, `-1` elsewhere. -/
def idx0 (i : grid0.Coords) (v3 : Vec Ideal S8x128x16x2 .f32) : IVec S8x128 32 :=
  select (cmpf .ogt (tileMax v3) (broadcast S8x128 (Scalar.ofBits (F := Ideal) .f32 0x00000000#32)))
    (k0_pay5 i) (broadcast S8x128 4294967295#32)

/-- The running maximum as the body computes it: the seven rounds, then the carried column. -/
theorem combined_eq (i : grid0.Coords) (v3 : Vec Ideal S8x128x16x2 .f32) (v64 : Vec Ideal S8x1 .i32) :
    k0_pay1 (F := Ideal) (k0_pay6 i v3) (k0_pay7 i v3) v64
      = maxsi (scan (idx0 i v3)) (broadcastTo S8x128 v64 broadcasts_S8x1_S8x128) := rfl

theorem combined_apply (i : grid0.Coords) (v3 : Vec Ideal S8x128x16x2 .f32) (v64 : Vec Ideal S8x1 .i32) (r : Fin 8)
    (j : Fin 128) :
    k0_pay1 (F := Ideal) (k0_pay6 i v3) (k0_pay7 i v3) v64 (ix2 r j)
      = IntOp.maxsi (scan (idx0 i v3) (ix2 r j)) (v64 (ix2 r (0 : Fin 1))) := by
  rw [combined_eq]
  show IntOp.maxsi _ (broadcastTo S8x128 v64 broadcasts_S8x1_S8x128 (ix2 r j)) = _
  refine congrArg (IntOp.maxsi _) ?_
  exact broadcastTo_apply v64 _ (ix2 r j) (ix2 r (0 : Fin 1)) (fun a => by
    match a with
    | ⟨0, _⟩ => show r.val = if (8 : ℕ) = 1 then 0 else r.val; rw [if_neg (by decide)]
    | ⟨1, _⟩ => show (0 : ℕ) = if (1 : ℕ) = 1 then 0 else j.val; rw [if_pos rfl])

/-- The frame numbers of a tile's lanes: lane `j` of the tile at grid column `i 1` is frame `128 · i 1 + j`. -/
theorem pay5_apply (i : grid0.Coords) (r : Fin 8) (j : Fin 128) :
    k0_pay5 i (ix2 r j) = BitVec.ofNat 32 (128 * (i 1).val + j.val) := by
  have hi : (i 1).val < 64 := (i 1).isLt
  show IntOp.addi (BitVec.ofNat 32 (0 * 128 + j.val)) (Scalar.muli (BitVec.ofNat 32 (i 1).val) 128#32) = _
  unfold IntOp.addi Scalar.muli IntOp.muli
  apply BitVec.eq_of_toNat_eq
  simp only [BitVec.toNat_add, BitVec.toNat_mul, BitVec.toNat_ofNat, Nat.reducePow]
  omega

/-- The largest channel-0 entry of a tile's frame over its 16 notes. -/
theorem tileMax_apply (v3 : Vec Ideal S8x128x16x2 .f32) (r : Fin 8) (j : Fin 128) :
    tileMax v3 (ix2 r j)
      = (Finset.univ : Finset (Fin 16)).fold max (FloatOps.ofBits (F := Ideal) .f32 0xFF800000#32)
          (fun k => v3 (ix4 r j k (0 : Fin 2))) := by
  unfold tileMax
  refine (Ideal.multiReduction_maximumf_single _ _ reduces_S8x128x16_S8x128 _ _ (ix2 r j)).trans ?_
  refine Finset.fold_congr (fun k _ => ?_)
  show shapeCast S8x128x16 _ _ (reduces_S8x128x16_S8x128.lift (ix2 r j) k) = _
  have hl : reduces_S8x128x16_S8x128.lift (ix2 r j) k = ix3 r j k := funext fun a => by
    match a with
    | ⟨0, _⟩ => rfl
    | ⟨1, _⟩ => rfl
    | ⟨2, _⟩ => rfl
  rw [hl]
  refine (shapeCast_apply _ _ (ix3 r j k) (ix4 r j k (0 : Fin 1)) ?_).trans ?_
  · rw [Shape.rowMajor_val_four, Shape.rowMajor_val_three]
    show ((r.val * 128 + j.val) * 16 + k.val) * 1 + 0 = (r.val * 128 + j.val) * 16 + k.val
    omega
  · exact extractStridedSlice_apply ![0, 0, 0, 0] v3 _ (ix4 r j k (0 : Fin 1)) (ix4 r j k (0 : Fin 2)) (fun a => by
      match a with
      | ⟨0, _⟩ => show r.val = 0 + r.val; omega
      | ⟨1, _⟩ => show j.val = 0 + j.val; omega
      | ⟨2, _⟩ => show k.val = 0 + k.val; omega
      | ⟨3, _⟩ => show (0 : ℕ) = 0 + 0; rfl)

/-- A lane the rounds start from is the specification's onset index of its frame, when the input block holds that
    frame's entries. -/
theorem idx0_apply (x : SIn.Idx → Ideal .f32) (i : grid0.Coords) (v3 : Vec Ideal S8x128x16x2 .f32) (r : Fin 8)
    (j : Fin 128) (b : Fin 64) (t : Fin 8192) (ht : t.val = 128 * (i 1).val + j.val)
    (hv : ∀ k : Fin 16, v3 (ix4 r j k (0 : Fin 2)) = x (ix4 b t k (0 : Fin 2))) :
    idx0 i v3 (ix2 r j) = onsetIdx x b t := by
  have h3 : (fun k => v3 (ix4 r j k (0 : Fin 2))) = fun k => x (ix4 b t k (0 : Fin 2)) := funext hv
  show Scalar.select (FloatOps.cmpf .ogt (tileMax v3 (ix2 r j)) (Scalar.ofBits (F := Ideal) .f32 0x00000000#32))
    (k0_pay5 i (ix2 r j)) 4294967295#32 = _
  rw [tileMax_apply, pay5_apply, ← ht, h3]
  rfl

/-! ## One grid point -/

/-- THE TILE STEP. If the input block holds row `b`'s frames `128 · i 1 + j` and the carried value is the running
    maximum of the row's frames before the tile, the body's combined value at lane `j` is the running maximum
    through frame `128 · i 1 + j`. -/
theorem tile_step (x : SIn.Idx → Ideal .f32) (i : grid0.Coords) (v3 : Vec Ideal S8x128x16x2 .f32)
    (v64 : Vec Ideal S8x1 .i32) (r : Fin 8) (b : Fin 64)
    (hv : ∀ (j : Fin 128) (k : Fin 16), v3 (ix4 r j k (0 : Fin 2))
      = x (ix4 b ⟨128 * (i 1).val + j.val, by have := (i 1).isLt; have : (i 1).val < 64 := this; omega⟩ k (0 : Fin 2)))
    (hc : IsFloorMax (onsetSeq x b) (128 * (i 1).val) (v64 (ix2 r (0 : Fin 1))).toInt) (j : Fin 128) :
    IsFloorMax (onsetSeq x b) (128 * (i 1).val + j.val + 1)
      (k0_pay1 (F := Ideal) (k0_pay6 i v3) (k0_pay7 i v3) v64 (ix2 r j)).toInt := by
  have hi : (i 1).val < 64 := (i 1).isLt
  rw [combined_apply, Words.maxsi_toInt]
  refine IsFloorMax.of_tile hc (w := 128) j.isLt ?_
  refine scan_isWinMax (a := fun j => onsetSeq x b (128 * (i 1).val + j)) (fun j => onsetSeq_lb x b _) (idx0 i v3) r
    (fun j' => ?_) j
  rw [idx0_apply x i v3 r j' b ⟨128 * (i 1).val + j'.val, by omega⟩ rfl (hv j'), onsetSeq_of_lt x b _ (by omega)]

/-- The stored output lane: the frame number less the combined value, as a float. -/
theorem pay2_apply (i : grid0.Coords) (v3 : Vec Ideal S8x128x16x2 .f32) (v64 : Vec Ideal S8x1 .i32) (r : Fin 8)
    (j : Fin 128) :
    k0_pay2 (F := Ideal) (k0_pay5 i) (k0_pay6 i v3) (k0_pay7 i v3) v64 (ix2 r j)
      = FloatOps.sitofp (F := Ideal) .f32 (IntOp.subi (BitVec.ofNat 32 (128 * (i 1).val + j.val))
          (k0_pay1 (F := Ideal) (k0_pay6 i v3) (k0_pay7 i v3) v64 (ix2 r j))) := by
  rw [← pay5_apply i r j]
  rfl

/-- The stored carried value: the combined value's last lane. -/
theorem pay3_apply (v35 v36 : IVec S8x128 32) (v64 : Vec Ideal S8x1 .i32) (r : Fin 8) :
    k0_pay3 (F := Ideal) v35 v36 v64 (ix2 r (0 : Fin 1)) = k0_pay1 (F := Ideal) v35 v36 v64 (ix2 r (127 : Fin 128)) := by
  show shapeCast S8x1 (extractStridedSlice S8x1 ![0, 127] (k0_pay1 (F := Ideal) v35 v36 v64) slices_S8x128_o0_127_S8x1)
    shapeCasts_S8x1_S8x1 (ix2 r (0 : Fin 1)) = _
  rw [shapeCast_self]
  exact extractStridedSlice_apply ![0, 127] _ _ (ix2 r (0 : Fin 1)) (ix2 r (127 : Fin 128)) (fun a => by
    match a with
    | ⟨0, _⟩ => show r.val = 0 + r.val; omega
    | ⟨1, _⟩ => show (127 : ℕ) = 127 + 0; rfl)

/-- The reset column holds `-1`. -/
theorem pay4_apply (r : Fin 8) : (k0_pay4 : IVec S8x1 32) (ix2 r (0 : Fin 1)) = 4294967295#32 := by
  show shapeCast S8x1 (broadcast S8x1 4294967295#32) shapeCasts_S8x1_S8x1 (ix2 r (0 : Fin 1)) = _
  rw [shapeCast_self]
  rfl

end Cert.KernelIdeal.Scan

end
-- ==== Proof.KernelInv.lean ====
/-
  What the kernel leaves point by point. The grid walks 8 row blocks, each through its 64 tiles in order; the carried
  column links the tiles of one row block: it is reset to `-1` at the row block's first tile and holds, after tile
  `ti`, the running maximum of each row's onset indices through frame `128 · (ti + 1) - 1`. By induction on the point:
  the output block of every point holds the specification's result for its frames.
-/
import proofs.«146377_j74165495267420_2_alg».proof.Proof.KernelPieces
import proofs.«146377_j74165495267420_2_alg».proof.Proof.KernelScan

noncomputable section

namespace Cert.KernelIdeal.Inv

open Cert.KernelIdeal Cert.KernelIdeal.Gen Idealize.ShloMosaic Idealize.ShloMosaic.TcCoe Idealize.SL.Sem
open Idealize.ShloMosaic.ValueIdx Cert.PrefixMax Cert.OnsetSpec
open Cert.KernelIdeal.Scan Cert.KernelIdeal.Pieces

variable (m : (ℓ : Loc nD τ sig) → Buf (Elt Ideal) ℓ)

/-- The argument array as the region finds it. -/
abbrev X (c : Dev nD) : SIn.Idx → Ideal .f32 := V m c main_arg0

/-- Point `t` of the grid is row block `t / 64`, tile `t % 64`. -/
theorem coords_fact : ∀ t : Fin cfg0.N, ((grid0.coords t) 0).val = t.val / 64 ∧ ((grid0.coords t) 1).val = t.val % 64 :=
  (by decide +kernel : ∀ t : Fin grid0.N, ((grid0.coords t) 0).val = t.val / 64 ∧ ((grid0.coords t) 1).val = t.val % 64)

/-- The input window's block index at point `t`. -/
theorem idx_facts0 : ∀ t : Fin cfg0.N, win0_0.index t (0 : Fin 4) = t.val / 64 ∧ win0_0.index t (1 : Fin 4) = t.val % 64
    ∧ win0_0.index t (2 : Fin 4) = 0 ∧ win0_0.index t (3 : Fin 4) = 0 :=
  (by decide +kernel : ∀ t : Fin grid0.N, _)

/-- The input block at point `t` holds rows `8 · (t / 64) + r`, frames `128 · (t % 64) + j`. -/
theorem iblk_apply (c : Dev nD) (t : Fin cfg0.N) (r : Fin 8) (j : Fin 128) (k : Fin 16) (b : Fin 64) (t' : Fin 8192)
    (hb : b.val = 8 * (t.val / 64) + r.val) (ht : t'.val = 128 * (t.val % 64) + j.val) :
    (iblk m c 0 t : Vec Ideal S8x128x16x2 .f32) (ix4 r j k (0 : Fin 2)) = X m c (ix4 b t' k (0 : Fin 2)) := by
  unfold iblk
  rw [View.read_apply]
  show V m c main_arg0 _ = V m c main_arg0 _
  refine congrArg (V m c main_arg0) (funext fun a => Fin.ext ?_)
  obtain ⟨f0, f1, f2, f3⟩ := idx_facts0 t
  match a with
  | ⟨0, _⟩ => show win0_0.index t (0 : Fin 4) * 8 + 1 * r.val = b.val; rw [f0, hb]; omega
  | ⟨1, _⟩ => show win0_0.index t (1 : Fin 4) * 128 + 1 * j.val = t'.val; rw [f1, ht]; omega
  | ⟨2, _⟩ => show win0_0.index t (2 : Fin 4) * 16 + 1 * k.val = k.val; rw [f2]; omega
  | ⟨3, _⟩ => show win0_0.index t (3 : Fin 4) * 2 + 1 * 0 = 0; rw [f3]

/-- ONE POINT, over any block and carried column: if the block holds row `b`'s frames of tile `ti` and the carried
    value is the running maximum before the tile, the new carried value is the running maximum through the tile and
    every output lane is the specification's result. -/
theorem point (x : SIn.Idx → Ideal .f32) (i : grid0.Coords) (v3 : Vec Ideal S8x128x16x2 .f32) (xs : Vec Ideal S8x1 .i32)
    (r : Fin 8) (b : Fin 64) (ti : ℕ) (hti : (i 1).val = ti)
    (hv : ∀ (j : Fin 128) (k : Fin 16) (t' : Fin 8192), t'.val = 128 * ti + j.val →
      v3 (ix4 r j k (0 : Fin 2)) = x (ix4 b t' k (0 : Fin 2)))
    (hc : IsFloorMax (onsetSeq x b) (128 * ti) (xs (ix2 r (0 : Fin 1))).toInt) :
    IsFloorMax (onsetSeq x b) (128 * (ti + 1)) (k0_pay3 (F := Ideal) (k0_pay6 i v3) (k0_pay7 i v3) xs (ix2 r (0 : Fin 1))).toInt
      ∧ ∀ (j : Fin 128) (t' : Fin 8192), t'.val = 128 * ti + j.val →
        k0_pay2 (F := Ideal) (k0_pay5 i) (k0_pay6 i v3) (k0_pay7 i v3) xs (ix2 r j) = G x (ix2 b t') := by
  subst hti
  have step := tile_step x i v3 xs r b (fun j k => hv j k _ rfl) hc
  refine ⟨?_, fun j t' ht' => ?_⟩
  · rw [pay3_apply]
    have h127 := step (127 : Fin 128)
    have e : 128 * (i 1).val + (127 : Fin 128).val + 1 = 128 * ((i 1).val + 1) := by
      show 128 * (i 1).val + 127 + 1 = 128 * ((i 1).val + 1); omega
    rw [e] at h127
    exact h127
  · rw [pay2_apply]
    have e : BitVec.ofNat 32 (128 * (i 1).val + j.val) = BitVec.ofNat 32 t'.val := by rw [ht']
    rw [e]
    exact G_of_isFloorMax x b t' _ (by rw [ht']; exact step j)

/-- Row `r` of the row block of point `n`. -/
def rowOf (n : ℕ) (hn : n < cfg0.N) (r : Fin 8) : Fin 64 :=
  ⟨8 * (n / 64) + r.val, by have : cfg0.N = 512 := N_0; have := r.isLt; omega⟩

/-- THE INVARIANT, by induction on the point: after point `n` the carried column holds each row's running maximum
    through the point's tile, and the output block the specification's results. -/
theorem inv (c : Dev nD) (n : ℕ) : ∀ (hn : n < cfg0.N) (r : Fin 8),
    IsFloorMax (onsetSeq (X m c) (rowOf n hn r)) (128 * (n % 64 + 1))
        (((outsAt0 m c n hn).2 : Vec Ideal S8x1 .i32) (ix2 r (0 : Fin 1))).toInt
      ∧ ∀ (j : Fin 128) (t' : Fin 8192), t'.val = 128 * (n % 64) + j.val →
        ((outsAt0 m c n hn).1 : Vec Ideal S8x128 .f32) (ix2 r j) = G (X m c) (ix2 (rowOf n hn r) t') := by
  induction n using Nat.strong_induction_on with
  | _ n ih =>
    intro hn r
    have hN : cfg0.N = 512 := N_0
    obtain ⟨_, c1⟩ := coords_fact ⟨n, hn⟩
    have hblk : ∀ (j : Fin 128) (k : Fin 16) (t' : Fin 8192), t'.val = 128 * (n % 64) + j.val →
        (iblk m c 0 ⟨n, hn⟩ : Vec Ideal S8x128x16x2 .f32) (ix4 r j k (0 : Fin 2)) = X m c (ix4 (rowOf n hn r) t' k (0 : Fin 2)) :=
      fun j k t' ht' => iblk_apply m c ⟨n, hn⟩ r j k (rowOf n hn r) t' rfl ht'
    by_cases h0 : n % 64 = 0
    · have eA := outsAt0_A m c ⟨n, hn⟩ h0
      have eA' : outsAt0 m c n hn = _ := eA
      rw [eA']
      dsimp only
      rw [out_A, sout_A]
      refine point (X m c) (grid0.coords ⟨n, hn⟩) (iblk m c 0 ⟨n, hn⟩) (k0_pay4 : IVec S8x1 32) r (rowOf n hn r) (n % 64) c1 hblk ?_
      rw [pay4_apply, Words.toInt_neg_one, h0]
      exact IsFloorMax.zero _
    · have hn1 : n - 1 < cfg0.N := by omega
      obtain ⟨ih1, _⟩ := ih (n - 1) (by omega) hn1 r
      have eB := outsAt0_B m c ⟨n, hn⟩ h0
      have eB' : outsAt0 m c n hn = _ := eB
      rw [eB']
      dsimp only
      rw [out_B, sout_B]
      refine point (X m c) (grid0.coords ⟨n, hn⟩) (iblk m c 0 ⟨n, hn⟩) _ r (rowOf n hn r) (n % 64) c1 hblk ?_
      have e1 : rowOf (n - 1) hn1 r = rowOf n hn r := Fin.ext (by
        show 8 * ((n - 1) / 64) + r.val = 8 * (n / 64) + r.val; omega)
      have e2 : 128 * ((n - 1) % 64 + 1) = 128 * (n % 64) := by omega
      rw [e1, e2] at ih1
      exact ih1

end Cert.KernelIdeal.Inv

end
-- ==== Proof.KernelValue.lean ====
/-
  The kernel's result array. Point `t` of the grid writes back the block of rows `8 · (t / 64) …`, frames
  `128 · (t % 64) …`, and what it writes is that block of the specification's result; the 512 blocks tile the
  [64, 8192] array, so the array ends holding the specification's result, and the host line after the region
  gives it a trailing unit axis.
-/
import proofs.«146377_j74165495267420_2_alg».proof.Proof.KernelInv
import Idealize.ShloMosaic.Lib.Pipeline.Value
import Idealize.ShloMosaic.Lib.StableHlo.Run

noncomputable section

namespace Cert.KernelIdeal.OutValue

open Cert.KernelIdeal Cert.KernelIdeal.Gen Idealize.ShloMosaic Idealize.ShloMosaic.TcCoe Idealize.SL.Sem
open Idealize.ShloMosaic.StableHlo
open Idealize.ShloMosaic.ValueIdx Cert.PrefixMax Cert.OnsetSpec Cert.KernelIdeal.Inv
open Idealize.ShloMosaic.Pipeline (Dat)

variable (m : (ℓ : Loc nD τ sig) → Buf (Elt Ideal) ℓ) (ρ : Dev nD → PrngReg)

/-- The output window's block index at point `t`. -/
theorem idx_facts1 : ∀ t : Fin cfg0.N, win0_1.index t (0 : Fin 2) = t.val / 64 ∧ win0_1.index t (1 : Fin 2) = t.val % 64 :=
  (by decide +kernel : ∀ t : Fin grid0.N, _)

/-- WHAT POINT `t` WRITES BACK is block `t` of the specification's result of the argument array. -/
theorem flushed_eq (c : Dev nD) (t : Fin cfg0.N) :
    (dats m 0 c).flushed 1 t = ((cfg0.win 1).blk t).view.read (Elt Ideal) (G (X m c)) := by
  show (cfg0.win 1).cut (grid0.coords t) ((dats m 0 c).after 1 t) = _
  rw [after0_1]
  funext y
  have hy0 : (y 0).val < 8 := (y 0).isLt
  have hy1 : (y 1).val < 128 := (y 1).isLt
  obtain ⟨f0, f1⟩ := idx_facts1 t
  have hN : cfg0.N = 512 := N_0
  have key := (inv m c t.val t.isLt ⟨(y 0).val, hy0⟩).2 ⟨(y 1).val, hy1⟩ ⟨128 * (t.val % 64) + (y 1).val, by omega⟩ rfl
  have ey : y = ix2 (⟨(y 0).val, hy0⟩ : Fin 8) (⟨(y 1).val, hy1⟩ : Fin 128) := funext fun a => by
    match a with
    | ⟨0, _⟩ => rfl
    | ⟨1, _⟩ => rfl
  show ((outsAt0 m c t.val t.isLt).1 : Vec Ideal S8x128 .f32) y = G (X m c) (((cfg0.win 1).blk t).view.emb y)
  refine (congrArg ((outsAt0 m c t.val t.isLt).1 : Vec Ideal S8x128 .f32) ey).trans (key.trans (congrArg (G (X m c)) ?_))
  funext a
  apply Fin.ext
  match a with
  | ⟨0, _⟩ => show 8 * (t.val / 64) + (y 0).val = win0_1.index t (0 : Fin 2) * 8 + 1 * (y 0).val; rw [f0]; omega
  | ⟨1, _⟩ => show 128 * (t.val % 64) + (y 1).val = win0_1.index t (1 : Fin 2) * 128 + 1 * (y 1).val; rw [f1]; omega

/-- An index of the array is in point `t`'s block iff each coordinate is in the block's range on its axis. -/
theorem mem_blk (t : Fin cfg0.N) (i : S64x8192.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v0).slice (win0_1.rect t)).set ↔ _
  rw [View.set_slice_whole, Rect.mem_set_unit]
  exact Iff.rfl

/-- Entry `(b, t')` is in the block of point `64 · (b / 8) + t' / 128`: the blocks tile the array. -/
theorem cover (i : S64x8192.Idx) :
    ∃ t : Fin cfg0.N, (cfg0.win 1).flush t = true ∧ i ∈ ((cfg0.win 1).blk t).view.set := by
  have hN : cfg0.N = 512 := N_0
  have h0 : (i 0).val < 64 := (i 0).isLt
  have h1 : (i 1).val < 8192 := (i 1).isLt
  have ht : 64 * ((i 0).val / 8) + (i 1).val / 128 < cfg0.N := by omega
  refine ⟨⟨64 * ((i 0).val / 8) + (i 1).val / 128, ht⟩, flush0_1 _, ?_⟩
  rw [mem_blk]
  obtain ⟨f0, f1⟩ := idx_facts1 ⟨64 * ((i 0).val / 8) + (i 1).val / 128, ht⟩
  intro a
  match a with
  | ⟨0, _⟩ =>
    show win0_1.index ⟨64 * ((i 0).val / 8) + (i 1).val / 128, ht⟩ (0 : Fin 2) * 8 ≤ (i 0).val
      ∧ (i 0).val < win0_1.index ⟨64 * ((i 0).val / 8) + (i 1).val / 128, ht⟩ (0 : Fin 2) * 8 + 8
    rw [f0]
    show (64 * ((i 0).val / 8) + (i 1).val / 128) / 64 * 8 ≤ (i 0).val ∧ (i 0).val < (64 * ((i 0).val / 8) + (i 1).val / 128) / 64 * 8 + 8
    omega
  | ⟨1, _⟩ =>
    show win0_1.index ⟨64 * ((i 0).val / 8) + (i 1).val / 128, ht⟩ (1 : Fin 2) * 128 ≤ (i 1).val
      ∧ (i 1).val < win0_1.index ⟨64 * ((i 0).val / 8) + (i 1).val / 128, ht⟩ (1 : Fin 2) * 128 + 128
    rw [f1]
    show (64 * ((i 0).val / 8) + (i 1).val / 128) % 64 * 128 ≤ (i 1).val ∧ (i 1).val < (64 * ((i 0).val / 8) + (i 1).val / 128) % 64 * 128 + 128
    omega

/-- THE ARRAY after the region: the specification's result of the argument array. -/
theorem final (c : Dev nD) : (dats m 0 c).arrAt 1 cfg0.N = G (X m c) :=
  (dats m 0 c).arrAt_eq_of_cover 1 (G (X m c)) (fun t _ => flushed_eq m c t) cover

/-- THE PROGRAM'S RESULT: the same with a trailing unit axis. -/
def result (c : Dev nD) : S64x8192x1.Idx → Ideal .f32 :=
  broadcastInDim (s := S64x8192) S64x8192x1 ![0, 1] bcast_S64x8192_S64x8192x1_0_1 (G (X m c))

/-- Its entry `(b, t, 0)` is the specification's result at `(b, t)`. -/
theorem result_apply (c : Dev nD) (i : S64x8192x1.Idx) : result m c i = G (X m c) (ix2 (i 0) (i 1)) :=
  broadcastInDim_apply (s := S64x8192) ![0, 1] bcast_S64x8192_S64x8192x1_0_1 (G (X m c)) i (ix2 (i 0) (i 1)) (fun a => by
    match a with
    | ⟨0, _⟩ => show (i 0).val = if (64 : Nat) = 1 then 0 else (i 0).val; rw [if_neg (by decide)]
    | ⟨1, _⟩ => show (i 1).val = if (8192 : Nat) = 1 then 0 else (i 1).val; rw [if_neg (by decide)])

/-- The host line after the region reads the region's array. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  unfold result
  refine congrArg (broadcastInDim (s := S64x8192) S64x8192x1 ![0, 1] bcast_S64x8192_S64x8192x1_0_1) ?_
  exact (Pipeline.withArrays_arr spec0 launch0.win.arr_inj c _ _ 1).trans (final m c)

/-- THE RUN, READ: every weakly fair execution ends with the result at the specification's and the argument unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.OutValue

end
-- ==== Proof.lean ====
/-
  The claim: the onset-recurrence kernel against its reference, over the extended reals.
  For an onset roll `x` of shape [64, 8192, 16, 2], frame `(b, t)` has an onset when the largest channel-0 entry of its
  16 notes is positive, and the result at `(b, t)` is `t` less the index of the latest onset frame of row `b` at or
  before `t` (`-1` when there is none), as a float. The reference takes that running maximum with one window
  reduction along the frames. The kernel takes it tile by tile: within a tile of 128 frames by seven doubling rounds
  of shifted signed maxima, across tiles through a carried column that a row block's first tile resets to `-1`.
  Both are the running maximum by its universal property — an upper bound of the onset indices so far that is one of
  them or `-1` — so they are one word, and the float conversions of `t` less that word agree. Only integer
  comparisons and one float comparison against zero are involved: nothing needs the inputs to be finite.
  The three frames: the two kernels' are the generated frame certificates; the reference's is its run with the
  result dropped. The idealization rewrote nothing, so `preserves` is `True`.
-/
import proofs.«146377_j74165495267420_2_alg».proof.Defs
import proofs.«146377_j74165495267420_2_alg».proof.Proof.Gen.Kernel
import proofs.«146377_j74165495267420_2_alg».proof.Proof.Gen.Kernel.Skeleton
import proofs.«146377_j74165495267420_2_alg».proof.Proof.Gen.Kernel.Launch
import proofs.«146377_j74165495267420_2_alg».proof.Proof.Gen.Kernel.Points
import proofs.«146377_j74165495267420_2_alg».proof.Proof.Gen.Kernel.Frame
import proofs.«146377_j74165495267420_2_alg».proof.Proof.Gen.KernelIdeal
import proofs.«146377_j74165495267420_2_alg».proof.Proof.Gen.KernelIdeal.Skeleton
import proofs.«146377_j74165495267420_2_alg».proof.Proof.Gen.KernelIdeal.Launch
import proofs.«146377_j74165495267420_2_alg».proof.Proof.Gen.KernelIdeal.Points
import proofs.«146377_j74165495267420_2_alg».proof.Proof.Gen.KernelIdeal.Frame
import proofs.«146377_j74165495267420_2_alg».proof.Proof.Gen.ReferenceIdeal
import proofs.«146377_j74165495267420_2_alg».proof.Proof.Gen.Pre_finite_inputs
import proofs.«146377_j74165495267420_2_alg».proof.Proof.RefRun
import proofs.«146377_j74165495267420_2_alg».proof.Proof.RefRead
import proofs.«146377_j74165495267420_2_alg».proof.Proof.RefValue
import proofs.«146377_j74165495267420_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The reference's last stage, of the kernel's argument array, is the kernel's result: entry `(b, t, 0)` of either is
    the specification's result at `(b, t)`. -/
theorem ref_eq_result (m : (ℓ : Loc Cert.KernelIdeal.nD Cert.KernelIdeal.τ Cert.KernelIdeal.sig) → Buf (Elt Ideal) ℓ)
    (c : Dev Cert.KernelIdeal.nD) :
    Cert.ReferenceIdeal.ReadP.val_main_v13 (F := Ideal)
        (m ((c.tc : Thread Cert.KernelIdeal.nD Cert.KernelIdeal.τ).loc Cert.KernelIdeal.main_arg0))
      = Cert.KernelIdeal.OutValue.result m c := by
  funext i
  rw [Cert.ReferenceIdeal.RefValue.val_main_v13_is_G]
  exact (Cert.KernelIdeal.OutValue.result_apply m c i).symm

/-- At the extended reals the kernel's result array ends at the specification's result of its argument with a
    trailing unit axis, and the reference's at the same of an argument that agrees. -/
theorem algebraic : Cert.algebraic_KernelIdeal_ReferenceIdeal := by
  intro m ρ m' ρ' _ hagree
  refine ⟨fun c => Cert.KernelIdeal.OutValue.result m c, Cert.KernelIdeal.OutValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v13_eq (F := Ideal) _).trans ?_
  rw [hagree c]
  exact ref_eq_result m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
